-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x576 : Shape := ⟨3, ![2, 1024, 576]⟩
abbrev S2x256x576 : Shape := ⟨3, ![2, 256, 576]⟩
abbrev S576x512 : Shape := ⟨2, ![576, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S2x1024x576 : S_.BroadcastsInDim S2x1024x576 (![] : Fin 0 → Fin S2x1024x576.rank)
  reducesTo_S2x1024x576_S_d0_1_2 : S2x1024x576.ReducesTo [0, 1, 2] S_
  h_S_ : 0 < S_.numel
  bcast_S_S2x256x576 : S_.BroadcastsInDim S2x256x576 (![] : Fin 0 → Fin S2x256x576.rank)
  reducesTo_S2x256x576_S_d0_1_2 : S2x256x576.ReducesTo [0, 1, 2] S_
  bcast_S_S576x512 : S_.BroadcastsInDim S576x512 (![] : Fin 0 → Fin S576x512.rank)
  reducesTo_S576x512_S_d0_1 : S576x512.ReducesTo [0, 1] S_
  bcast_S_S512 : S_.BroadcastsInDim S512 (![] : Fin 0 → Fin S512.rank)
  reducesTo_S512_S_d0 : S512.ReducesTo [0] S_
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S256x1 .f32) (main_arg8 : FVec F S1 .f32) (main_v33 : IVec S_ 1) : IVec S_ 1 :=
  let main_v34 : FVec F S256x1 .f32 := Host.absf main_arg7
  let main_cst_12 : FVec F S_ .f32 := constant S_ .f32 0x7F800000#32
  let main_v35 : FVec F S256x1 .f32 := broadcastInDim S256x1 ![] bcast_S_S256x1 main_cst_12
  let main_v36 : IVec S256x1 1 := cmpf .olt main_v34 main_v35
  let main_c_13 : IVec S_ 1 := constantI S_ 1 1#1
  let main_v37 : IVec S_ 1 := (fun x v => Host.reduce IntOp.andi x v reducesTo_S256x1_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S512 .f32) (main_arg5 : FVec F S512x256 .f32) (main_arg6 : FVec F S256 .f32) (main_arg7 : FVec F S256x1 .f32) (main_arg8 : FVec F S1 .f32) (main_v13 : IVec S_ 1) (main_v16 : IVec S576x512 1) : IVec S_ 1 :=
  let main_c_5 : IVec S_ 1 := constantI S_ 1 1#1
  let main_v17 : IVec S_ 1 := (fun x v => Host.reduce IntOp.andi x v reducesTo_S576x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x256 .f32 := Host.absf main_arg5
  let main_cst_8 : FVec F S_ .f32 := constant S_ .f32 0x7F800000#32
  let main_v25 : FVec F S512x256 .f32 := broadcastInDim S512x256 ![] bcast_S_S512x256 main_cst_8
  let main_v26 : IVec S512x256 1 := cmpf .olt main_v24 main_v25
  let main_c_9 : IVec S_ 1 := constantI S_ 1 1#1
  let main_v27 : IVec S_ 1 := (fun x v => Host.reduce IntOp.andi x v reducesTo_S512x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_v33

def fn {F : FTy → Type} [FloatOps F] (main_arg0 : FVec F S2x1024x576 .f32) (main_arg1 : FVec F S2x256x576 .f32) (main_arg2 : FVec F S576x512 .f32) (main_arg3 : FVec F S576x512 .f32) (main_arg4 : FVec F S512 .f32) (main_arg5 : FVec F S512x256 .f32) (main_arg6 : FVec F S256 .f32) (main_arg7 : FVec F S256x1 .f32) (main_arg8 : FVec F S1 .f32) : IVec S_ 1 :=
  let main_v0 : FVec F S2x1024x576 .f32 := Host.absf main_arg0
  let main_cst : FVec F S_ .f32 := constant S_ .f32 0x7F800000#32
  let main_v1 : FVec F S2x1024x576 .f32 := broadcastInDim S2x1024x576 ![] bcast_S_S2x1024x576 main_cst
  let main_v2 : IVec S2x1024x576 1 := cmpf .olt main_v0 main_v1
  let main_c : IVec S_ 1 := constantI S_ 1 1#1
  let main_v3 : IVec S_ 1 := (fun x v => Host.reduce IntOp.andi x v reducesTo_S2x1024x576_S_d0_1_2 h_S_) main_v2 main_c
  let main_v4 : FVec F S2x256x576 .f32 := Host.absf main_arg1
  let main_cst_0 : FVec F S_ .f32 := constant S_ .f32 0x7F800000#32
  let main_v5 : FVec F S2x256x576 .f32 := broadcastInDim S2x256x576 ![] bcast_S_S2x256x576 main_cst_0
  let main_v6 : IVec S2x256x576 1 := cmpf .olt main_v4 main_v5
  let main_c_1 : IVec S_ 1 := constantI S_ 1 1#1
  let main_v7 : IVec S_ 1 := (fun x v => Host.reduce IntOp.andi x v reducesTo_S2x256x576_S_d0_1_2 h_S_) main_v6 main_c_1
  let main_v8 : IVec S_ 1 := andi main_v3 main_v7
  let main_v9 : FVec F S576x512 .f32 := Host.absf main_arg2
  let main_cst_2 : FVec F S_ .f32 := constant S_ .f32 0x7F800000#32
  let main_v10 : FVec F S576x512 .f32 := broadcastInDim S576x512 ![] bcast_S_S576x512 main_cst_2
  let main_v11 : IVec S576x512 1 := cmpf .olt main_v9 main_v10
  let main_c_3 : IVec S_ 1 := constantI S_ 1 1#1
  let main_v12 : IVec S_ 1 := (fun x v => Host.reduce IntOp.andi x v reducesTo_S576x512_S_d0_1 h_S_) main_v11 main_c_3
  let main_v13 : IVec S_ 1 := andi main_v8 main_v12
  let main_v14 : FVec F S576x512 .f32 := Host.absf main_arg3
  let main_cst_4 : FVec F S_ .f32 := constant S_ .f32 0x7F800000#32
  let main_v15 : FVec F S576x512 .f32 := broadcastInDim S576x512 ![] bcast_S_S576x512 main_cst_4
  let main_v16 : IVec S576x512 1 := cmpf .olt main_v14 main_v15
  fn_part1 (F := F) main_arg4 main_arg5 main_arg6 main_arg7 main_arg8 main_v13 main_v16
-- ==== Kernel.lean ====
abbrev S2x1024x576 : Shape := ⟨3, ![2, 1024, 576]⟩
abbrev S2x256x576 : Shape := ⟨3, ![2, 256, 576]⟩
abbrev S576x512 : Shape := ⟨2, ![576, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x1024x512 : Shape := ⟨3, ![2, 1024, 512]⟩
abbrev S1x256x576 : Shape := ⟨3, ![1, 256, 576]⟩
abbrev S1x256x512 : Shape := ⟨3, ![1, 256, 512]⟩
abbrev S256x576 : Shape := ⟨2, ![256, 576]⟩
abbrev S256x512 : Shape := ⟨2, ![256, 512]⟩
abbrev S2x256x512 : Shape := ⟨3, ![2, 256, 512]⟩
abbrev S1x512 : Shape := ⟨2, ![1, 512]⟩
abbrev S1x256 : Shape := ⟨2, ![1, 256]⟩
abbrev S1x1 : Shape := ⟨2, ![1, 1]⟩
abbrev S2x1024x256 : Shape := ⟨3, ![2, 1024, 256]⟩
abbrev S1x64x512 : Shape := ⟨3, ![1, 64, 512]⟩
abbrev S1x128x512 : Shape := ⟨3, ![1, 128, 512]⟩
abbrev S1x64x128 : Shape := ⟨3, ![1, 64, 128]⟩
abbrev S64x512 : Shape := ⟨2, ![64, 512]⟩
abbrev S128x512 : Shape := ⟨2, ![128, 512]⟩
abbrev S64x1x512 : Shape := ⟨3, ![64, 1, 512]⟩
abbrev S64x128x512 : Shape := ⟨3, ![64, 128, 512]⟩
abbrev S1x1x512 : Shape := ⟨3, ![1, 1, 512]⟩
abbrev S8192x512 : Shape := ⟨2, ![8192, 512]⟩
abbrev S8192x256 : Shape := ⟨2, ![8192, 256]⟩
abbrev S64x128x256 : Shape := ⟨3, ![64, 128, 256]⟩
abbrev S1x1x256 : Shape := ⟨3, ![1, 1, 256]⟩
abbrev S64x128 : Shape := ⟨2, ![64, 128]⟩

abbrev nBuf : Space → Nat
  | .hbm => 17
  | .vmem => 21
  | .smem => 0
  | _ => 0

abbrev bufTy : (tb : Table) → Fin (tcTables nBuf tb) → BufTy
  | .hbm, ⟨0, _⟩ => ⟨S2x1024x576, .f32⟩
  | .hbm, ⟨1, _⟩ => ⟨S2x256x576, .f32⟩
  | .hbm, ⟨2, _⟩ => ⟨S576x512, .f32⟩
  | .hbm, ⟨3, _⟩ => ⟨S576x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S2x1024x512, .f32⟩
  | .hbm, ⟨10, _⟩ => ⟨S2x256x512, .f32⟩
  | .hbm, ⟨11, _⟩ => ⟨S1x512, .f32⟩
  | .hbm, ⟨12, _⟩ => ⟨S1x256, .f32⟩
  | .hbm, ⟨13, _⟩ => ⟨S1x1, .f32⟩
  | .hbm, ⟨14, _⟩ => ⟨S256, .f32⟩
  | .hbm, ⟨15, _⟩ => ⟨S1x256, .f32⟩
  | .hbm, ⟨16, _⟩ => ⟨S2x1024x256, .f32⟩
  | .local _ .vmem, ⟨0, _⟩ => ⟨S1x256x576, .f32⟩
  | .local _ .vmem, ⟨1, _⟩ => ⟨S1x256x576, .f32⟩
  | .local _ .vmem, ⟨2, _⟩ => ⟨S576x512, .f32⟩
  | .local _ .vmem, ⟨3, _⟩ => ⟨S1x256x512, .f32⟩
  | .local _ .vmem, ⟨4, _⟩ => ⟨S1x256x512, .f32⟩
  | .local _ .vmem, ⟨5, _⟩ => ⟨S1x256x576, .f32⟩
  | .local _ .vmem, ⟨6, _⟩ => ⟨S1x256x576, .f32⟩
  | .local _ .vmem, ⟨7, _⟩ => ⟨S576x512, .f32⟩
  | .local _ .vmem, ⟨8, _⟩ => ⟨S1x256x512, .f32⟩
  | .local _ .vmem, ⟨9, _⟩ => ⟨S1x256x512, .f32⟩
  | .local _ .vmem, ⟨10, _⟩ => ⟨S1x64x512, .f32⟩
  | .local _ .vmem, ⟨11, _⟩ => ⟨S1x64x512, .f32⟩
  | .local _ .vmem, ⟨12, _⟩ => ⟨S1x128x512, .f32⟩
  | .local _ .vmem, ⟨13, _⟩ => ⟨S1x128x512, .f32⟩
  | .local _ .vmem, ⟨14, _⟩ => ⟨S1x512, .f32⟩
  | .local _ .vmem, ⟨15, _⟩ => ⟨S512x256, .f32⟩
  | .local _ .vmem, ⟨16, _⟩ => ⟨S1x256, .f32⟩
  | .local _ .vmem, ⟨17, _⟩ => ⟨S1x256, .f32⟩
  | .local _ .vmem, ⟨18, _⟩ => ⟨S1x1, .f32⟩
  | .local _ .vmem, ⟨19, _⟩ => ⟨S1x64x128, .f32⟩
  | .local _ .vmem, ⟨20, _⟩ => ⟨S1x64x128, .f32⟩
  | _, _ => ⟨S2x1024x576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg7_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem7_1 : DmaSem sig := 20

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S576x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x576 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S576x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨3, ![2, 16, 2], ![false, false, false]⟩

def cc2_transform_0 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage2_0 : Fin 2 → Memref sig .tc .vmem S1x64x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S1x128x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 1 → Memref sig .tc .vmem S512x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false, false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 1 → Memref sig .tc .vmem S1x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 2 → Memref sig .tc .vmem S1x64x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, true]

class Facts₀ : Prop where
  inb_S1x256x576_S1x256x576_0_0_0 : ∀ a, (![0, 0, 0] : Fin 3 → Nat) a + S1x256x576.size a ≤ S1x256x576.size a
  h_S1x256x576 : 0 < S1x256x576.numel
  shapeCasts_S1x256x576_S256x576 : S1x256x576.ShapeCasts S256x576
  bitsLt_bf16_f32 : FTy.bits .bf16 < FTy.bits .f32
  inb_S576x512_S576x512_0_0 : ∀ a, (![0, 0] : Fin 2 → Nat) a + S576x512.size a ≤ S576x512.size a
  h_S576x512 : 0 < S576x512.numel
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  shapeCasts_S512_S1x512 : S512.ShapeCasts S1x512
  shapeCasts_S256_S1x256 : S256.ShapeCasts S1x256
  shapeCasts_S1_S1x1 : S1.ShapeCasts S1x1
  shapeCasts_S256x1_S256 : S256x1.ShapeCasts S256
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S1x512_S512 : S1x512.ShapeCasts S512
  shapeCasts_S64x512_S64x1x512 : S64x512.ShapeCasts S64x1x512
  shapeCasts_S128x512_S1x128x512 : S128x512.ShapeCasts S1x128x512
  broadcasts_S64x1x512_S64x128x512 : S64x1x512.Broadcasts S64x128x512
  broadcasts_S1x128x512_S64x128x512 : S1x128x512.Broadcasts S64x128x512
  shapeCasts_S512_S1x1x512 : S512.ShapeCasts S1x1x512
  broadcasts_S1x1x512_S64x128x512 : S1x1x512.Broadcasts S64x128x512
  shapeCasts_S64x128x512_S8192x512 : S64x128x512.ShapeCasts S8192x512
  inb_S512x256_S512x256_0_0 : ∀ a, (![0, 0] : Fin 2 → Nat) a + S512x256.size a ≤ S512x256.size a
  h_S512x256 : 0 < S512x256.numel
  shapeCasts_S8192x256_S64x128x256 : S8192x256.ShapeCasts S64x128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S256 : S1x256.ShapeCasts S256
  shapeCasts_S256_S1x1x256 : S256.ShapeCasts S1x1x256
  broadcasts_S1x1x256_S64x128x256 : S1x1x256.Broadcasts S64x128x256
  reduces_S64x128x256_S64x128 : S64x128x256.Reduces [2] S64x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  shapeCasts_S64x128_S1x64x128 : S64x128.ShapeCasts S1x64x128
  dot_S256x576_S576x512_S256x512_1_0_0_1_n_n_wf : DotDims.WF S256x576 S576x512 S256x512 [1] [0] [0] [1] [] []
  dot_S8192x512_S512x256_S8192x256_1_0_0_1_n_n_wf : DotDims.WF S8192x512 S512x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x576.size a ≤ S2x1024x576.size a
  hwx0_0 : ∀ i : grid0.Coords, EltTy.bits .f32 = 32 ∨ (Rect.block (s := S2x1024x576) S1x256x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x512.size a ≤ S576x512.size a
  hwx0_1 : ∀ i : grid0.Coords, EltTy.bits .f32 = 32 ∨ (Rect.block (s := S576x512) S576x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S2x1024x512.size a
  hwx0_2 : ∀ i : grid0.Coords, EltTy.bits .f32 = 32 ∨ (Rect.block (s := S2x1024x512) S1x256x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x576.size a ≤ S2x256x576.size a
  hwx1_0 : ∀ i : grid1.Coords, EltTy.bits .f32 = 32 ∨ (Rect.block (s := S2x256x576) S1x256x576.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S576x512.size a ≤ S576x512.size a
  hwx1_1 : ∀ i : grid1.Coords, EltTy.bits .f32 = 32 ∨ (Rect.block (s := S576x512) S576x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x256x512.size a ≤ S2x256x512.size a
  hwx1_2 : ∀ i : grid1.Coords, EltTy.bits .f32 = 32 ∨ (Rect.block (s := S2x256x512) S1x256x512.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x512.size a ≤ S2x1024x512.size a
  hwx2_0 : ∀ i : grid2.Coords, EltTy.bits .f32 = 32 ∨ (Rect.block (s := S2x1024x512) S1x64x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x128x512.size a ≤ S2x256x512.size a
  hwx2_1 : ∀ i : grid2.Coords, EltTy.bits .f32 = 32 ∨ (Rect.block (s := S2x256x512) S1x128x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S512x256.size a
  hwx2_3 : ∀ i : grid2.Coords, EltTy.bits .f32 = 32 ∨ (Rect.block (s := S512x256) S512x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x256.size a ≤ S1x256.size a
  hwx2_5 : ∀ i : grid2.Coords, EltTy.bits .f32 = 32 ∨ (Rect.block (s := S1x256) S1x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x64x128.size a ≤ S2x1024x256.size a
  hwx2_7 : ∀ i : grid2.Coords, EltTy.bits .f32 = 32 ∨ (Rect.block (s := S2x1024x256) S1x64x128.size (cc2_transform_7 i) (hinb2_7 i)).WholeWords (EltTy.packing .f32)

variable [Facts₀]

def dot_S256x576_S576x512_S256x512_1_0_0_1_n_n : DotDims S256x576 S576x512 S256x512 where
  lhsContracting := [1]
  rhsContracting := [0]
  lhsNonContracting := [0]
  rhsNonContracting := [1]
  lhsBatch := []
  rhsBatch := []
  wf := dot_S256x576_S576x512_S256x512_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

abbrev win0_0 : Pipeline.Window sig grid0 :=
  Pipeline.Window.ofSpec (Memref.whole main_arg0) S1x256x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S576x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S1x256x576.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S576x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S1x64x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1x128x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S512x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v6) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S1x64x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S2x1024x576 : Shape := ⟨3, ![2, 1024, 576]⟩
abbrev S2x256x576 : Shape := ⟨3, ![2, 256, 576]⟩
abbrev S576x512 : Shape := ⟨2, ![576, 512]⟩
abbrev S512 : Shape := ⟨1, ![512]⟩
abbrev S512x256 : Shape := ⟨2, ![512, 256]⟩
abbrev S256 : Shape := ⟨1, ![256]⟩
abbrev S256x1 : Shape := ⟨2, ![256, 1]⟩
abbrev S1 : Shape := ⟨1, ![1]⟩
abbrev S2x1024x512 : Shape := ⟨3, ![2, 1024, 512]⟩
abbrev S2x256x512 : Shape := ⟨3, ![2, 256, 512]⟩
abbrev S2x1024x1x512 : Shape := ⟨4, ![2, 1024, 1, 512]⟩
abbrev S2x1x256x512 : Shape := ⟨4, ![2, 1, 256, 512]⟩
abbrev S2x1024x256x512 : Shape := ⟨4, ![2, 1024, 256, 512]⟩
abbrev S1x1x1x512 : Shape := ⟨4, ![1, 1, 1, 512]⟩
abbrev S_ : Shape := ⟨0, ![]⟩
abbrev S2x1024x256x256 : Shape := ⟨4, ![2, 1024, 256, 256]⟩
abbrev S1x1x1x256 : Shape := ⟨4, ![1, 1, 1, 256]⟩
abbrev S2x1024x256x1 : Shape := ⟨4, ![2, 1024, 256, 1]⟩
abbrev S2x1024x256 : Shape := ⟨3, ![2, 1024, 256]⟩

abbrev nBuf : Space → Nat
  | .hbm => 34
  | .vmem => 0
  | .smem => 0
  | _ => 0

abbrev bufTy : (tb : Table) → Fin (tcTables nBuf tb) → BufTy
  | .hbm, ⟨0, _⟩ => ⟨S2x1024x576, .f32⟩
  | .hbm, ⟨1, _⟩ => ⟨S2x256x576, .f32⟩
  | .hbm, ⟨2, _⟩ => ⟨S576x512, .f32⟩
  | .hbm, ⟨3, _⟩ => ⟨S576x512, .f32⟩
  | .hbm, ⟨4, _⟩ => ⟨S512, .f32⟩
  | .hbm, ⟨5, _⟩ => ⟨S512x256, .f32⟩
  | .hbm, ⟨6, _⟩ => ⟨S256, .f32⟩
  | .hbm, ⟨7, _⟩ => ⟨S256x1, .f32⟩
  | .hbm, ⟨8, _⟩ => ⟨S1, .f32⟩
  | .hbm, ⟨9, _⟩ => ⟨S2x1024x512, .f32⟩
  | .hbm, ⟨10, _⟩ => ⟨S2x256x512, .f32⟩
  | .hbm, ⟨11, _⟩ => ⟨S2x1024x1x512, .f32⟩
  | .hbm, ⟨12, _⟩ => ⟨S2x1x256x512, .f32⟩
  | .hbm, ⟨13, _⟩ => ⟨S2x1024x256x512, .f32⟩
  | .hbm, ⟨14, _⟩ => ⟨S2x1024x256x512, .f32⟩
  | .hbm, ⟨15, _⟩ => ⟨S2x1024x256x512, .f32⟩
  | .hbm, ⟨16, _⟩ => ⟨S1x1x1x512, .f32⟩
  | .hbm, ⟨17, _⟩ => ⟨S2x1024x256x512, .f32⟩
  | .hbm, ⟨18, _⟩ => ⟨S2x1024x256x512, .f32⟩
  | .hbm, ⟨19, _⟩ => ⟨S_, .f32⟩
  | .hbm, ⟨20, _⟩ => ⟨S2x1024x256x512, .f32⟩
  | .hbm, ⟨21, _⟩ => ⟨S2x1024x256x512, .f32⟩
  | .hbm, ⟨22, _⟩ => ⟨S2x1024x256x256, .f32⟩
  | .hbm, ⟨23, _⟩ => ⟨S1x1x1x256, .f32⟩
  | .hbm, ⟨24, _⟩ => ⟨S2x1024x256x256, .f32⟩
  | .hbm, ⟨25, _⟩ => ⟨S2x1024x256x256, .f32⟩
  | .hbm, ⟨26, _⟩ => ⟨S_, .f32⟩
  | .hbm, ⟨27, _⟩ => ⟨S2x1024x256x256, .f32⟩
  | .hbm, ⟨28, _⟩ => ⟨S2x1024x256x256, .f32⟩
  | .hbm, ⟨29, _⟩ => ⟨S2x1024x256x1, .f32⟩
  | .hbm, ⟨30, _⟩ => ⟨S2x1024x256, .f32⟩
  | .hbm, ⟨31, _⟩ => ⟨S_, .f32⟩
  | .hbm, ⟨32, _⟩ => ⟨S2x1024x256, .f32⟩
  | .hbm, ⟨33, _⟩ => ⟨S2x1024x256, .f32⟩
  | _, _ => ⟨S2x1024x576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call0_cst : Ref sig .tc := ⟨.hbm, 19, rfl⟩
abbrev main_call0_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_call1_cst : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S2x1024x512_S2x1024x1x512_0_1_3 : S2x1024x512.BroadcastsInDim S2x1024x1x512 (![0, 1, 3] : Fin 3 → Fin S2x1024x1x512.rank)
  bcast_S2x256x512_S2x1x256x512_0_2_3 : S2x256x512.BroadcastsInDim S2x1x256x512 (![0, 2, 3] : Fin 3 → Fin S2x1x256x512.rank)
  bcast_S2x1024x1x512_S2x1024x256x512_0_1_2_3 : S2x1024x1x512.BroadcastsInDim S2x1024x256x512 (![0, 1, 2, 3] : Fin 4 → Fin S2x1024x256x512.rank)
  bcast_S2x1x256x512_S2x1024x256x512_0_1_2_3 : S2x1x256x512.BroadcastsInDim S2x1024x256x512 (![0, 1, 2, 3] : Fin 4 → Fin S2x1024x256x512.rank)
  bcast_S512_S1x1x1x512_3 : S512.BroadcastsInDim S1x1x1x512 (![3] : Fin 1 → Fin S1x1x1x512.rank)
  bcast_S1x1x1x512_S2x1024x256x512_0_1_2_3 : S1x1x1x512.BroadcastsInDim S2x1024x256x512 (![0, 1, 2, 3] : Fin 4 → Fin S2x1024x256x512.rank)
  bcast_S_S2x1024x256x512 : S_.BroadcastsInDim S2x1024x256x512 (![] : Fin 0 → Fin S2x1024x256x512.rank)
  bcast_S256_S1x1x1x256_3 : S256.BroadcastsInDim S1x1x1x256 (![3] : Fin 1 → Fin S1x1x1x256.rank)
  bcast_S1x1x1x256_S2x1024x256x256_0_1_2_3 : S1x1x1x256.BroadcastsInDim S2x1024x256x256 (![0, 1, 2, 3] : Fin 4 → Fin S2x1024x256x256.rank)
  bcast_S_S2x1024x256x256 : S_.BroadcastsInDim S2x1024x256x256 (![] : Fin 0 → Fin S2x1024x256x256.rank)
  shapeCasts_S2x1024x256x1_S2x1024x256 : S2x1024x256x1.ShapeCasts S2x1024x256
  shapeCasts_S1_S_ : S1.ShapeCasts S_
  bcast_S_S2x1024x256 : S_.BroadcastsInDim S2x1024x256 (![] : Fin 0 → Fin S2x1024x256.rank)
  dot_S2x1024x576_S576x512_S2x1024x512_2_0_01_1_n_n_wf : DotDims.WF S2x1024x576 S576x512 S2x1024x512 [2] [0] [0, 1] [1] [] []
  dot_S2x256x576_S576x512_S2x256x512_2_0_01_1_n_n_wf : DotDims.WF S2x256x576 S576x512 S2x256x512 [2] [0] [0, 1] [1] [] []
  dot_S2x1024x256x512_S512x256_S2x1024x256x256_3_0_012_1_n_n_wf : DotDims.WF S2x1024x256x512 S512x256 S2x1024x256x256 [3] [0] [0, 1, 2] [1] [] []
  dot_S2x1024x256x256_S256x1_S2x1024x256x1_3_0_012_1_n_n_wf : DotDims.WF S2x1024x256x256 S256x1 S2x1024x256x1 [3] [0] [0, 1, 2] [1] [] []

variable [Facts₀]

def dot_S2x1024x576_S576x512_S2x1024x512_2_0_01_1_n_n : DotDims S2x1024x576 S576x512 S2x1024x512 where
  lhsContracting := [2]
  rhsContracting := [0]
  lhsNonContracting := [0, 1]
  rhsNonContracting := [1]
  lhsBatch := []
  rhsBatch := []
  wf := dot_S2x1024x576_S576x512_S2x1024x512_2_0_01_1_n_n_wf
def dot_S2x256x576_S576x512_S2x256x512_2_0_01_1_n_n : DotDims S2x256x576 S576x512 S2x256x512 where
  lhsContracting := [2]
  rhsContracting := [0]
  lhsNonContracting := [0, 1]
  rhsNonContracting := [1]
  lhsBatch := []
  rhsBatch := []
  wf := dot_S2x256x576_S576x512_S2x256x512_2_0_01_1_n_n_wf
def dot_S2x1024x256x512_S512x256_S2x1024x256x256_3_0_012_1_n_n : DotDims S2x1024x256x512 S512x256 S2x1024x256x256 where
  lhsContracting := [3]
  rhsContracting := [0]
  lhsNonContracting := [0, 1, 2]
  rhsNonContracting := [1]
  lhsBatch := []
  rhsBatch := []
  wf := dot_S2x1024x256x512_S512x256_S2x1024x256x256_3_0_012_1_n_n_wf
def dot_S2x1024x256x256_S256x1_S2x1024x256x1_3_0_012_1_n_n : DotDims S2x1024x256x256 S256x1 S2x1024x256x1 where
  lhsContracting := [3]
  rhsContracting := [0]
  lhsNonContracting := [0, 1, 2]
  rhsNonContracting := [1]
  lhsBatch := []
  rhsBatch := []
  wf := dot_S2x1024x256x256_S256x1_S2x1024x256x1_3_0_012_1_n_n_wf

class Facts : Prop extends Facts₀ where

variable [Facts]
-- ==== Proof.KernelRun.lean ====
/-
  The idealized kernel's run with its result named. The program is three grids of blocks run one after the other
  around a short stretch of reshapes; after the last one the result buffer holds what the third grid's write-backs
  leave in it, and every argument buffer holds what it held at launch. The contents at each boundary are folded from
  the launch memory exactly as for the frame claim; only the final reading differs: the result buffer is read too.
-/
import proofs.«176340_j70798240907716_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from the launch memory terminates without a fault; the result buffer then holds the
    last boundary's contents at the result, and each argument buffer its launch contents. -/
theorem run : θ_run defs (onTc (τ := τ) (main (F := F))) ⟨m, fun _ => 0, ρ⟩ (fun r => ∀ c : Dev nD,
      r.2.mem ((c.tc : Thread nD τ).loc main_v7) = W4 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v7 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Result

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.ProjBody.lean ====
/-
  The projection kernels' body at an index. Each of the two projection grids loads one 1×256×576 block of feature
  rows and the whole 576×512 weight matrix, multiplies them into a zero accumulator and stores the 1×256×512 product.
  On the extended reals the change of float format is the identity, so the stored block at (0, p, q) is the sum over
  d of X(0, p, d) · W(d, q).
-/
import proofs.«176340_j70798240907716_2_alg».proof.Proof.Gen.KernelIdeal.Skeleton
import proofs.«176340_j70798240907716_2_alg».proof.Proof.LibBlockReads
import Idealize.ShloMosaic.Lib.ValueLayout

open scoped BigOperators

noncomputable section

namespace Cert.KernelIdeal.ProjBody

open Cert.KernelIdeal Cert.KernelIdeal.Gen Idealize.ShloMosaic Idealize.ShloMosaic.ValueIdx Cert.Lib.BlockReads

/-- The first projection grid's stored block at (0, p, q): row p of the loaded block times column q of the weights. -/
theorem payload0_apply (x0 : Vec Ideal S1x256x576 .f32) (x1 : Vec Ideal S576x512 .f32) (p : Fin 256) (q : Fin 512) :
    k0_pay1 (F := Ideal) x0 x1 (ix3 (0 : Fin 1) p q) = ∑ d : Fin 576, x0 (ix3 (0 : Fin 1) p d) * x1 (ix2 d q) := by
  unfold k0_pay1
  refine (shapeCast_ab_1ab_apply _ _ 0 p q).trans ?_
  refine (matmul_zero_rows_apply _ rfl rfl rfl rfl rfl rfl none _ _ p q).trans ?_
  refine Finset.sum_congr rfl fun d _ => ?_
  exact congrArg (· * x1 (ix2 d q)) (shapeCast_1ab_ab_apply x0 _ p d)

/-- The second projection grid's body is the same text over the same shapes. -/
theorem payload1_apply (x0 : Vec Ideal S1x256x576 .f32) (x1 : Vec Ideal S576x512 .f32) (p : Fin 256) (q : Fin 512) :
    k1_pay1 (F := Ideal) x0 x1 (ix3 (0 : Fin 1) p q) = ∑ d : Fin 576, x0 (ix3 (0 : Fin 1) p d) * x1 (ix2 d q) := by
  unfold k1_pay1
  refine (shapeCast_ab_1ab_apply _ _ 0 p q).trans ?_
  refine (matmul_zero_rows_apply _ rfl rfl rfl rfl rfl rfl none _ _ p q).trans ?_
  refine Finset.sum_congr rfl fun d _ => ?_
  exact congrArg (· * x1 (ix2 d q)) (shapeCast_1ab_ab_apply x0 _ p d)

end Cert.KernelIdeal.ProjBody

end
-- ==== Proof.PairMlpSpec.lean ====
/-
  The pairwise two-layer scorer as one function of its nine arguments, on the extended reals.
  Rows of the two feature arrays are projected by their weight matrices; for every batch b, row n of the first and row
  m of the second the 512 projected values are added, the first bias added, and the maximum with zero taken; the 512
  hidden values go through the second weight matrix, the second bias and again the maximum with zero; the 256 values
  are weighted by the last column and summed, and the last bias added.
-/
import Idealize.ShloMosaic.PureOps.Ideal
import Idealize.ShloMosaic.Lib.ValueIdx

open scoped BigOperators

noncomputable section

namespace Cert.PairMlp

open Idealize.ShloMosaic Idealize.ShloMosaic.ValueIdx

/-- Each row of a batch of N rows of 576 features times a 576×512 matrix. -/
def proj {N : Nat} (X : (⟨3, ![2, N, 576]⟩ : Shape).Idx → EReal) (W : (⟨2, ![576, 512]⟩ : Shape).Idx → EReal) :
    (⟨3, ![2, N, 512]⟩ : Shape).Idx → EReal :=
  fun i => ∑ d : Fin 576, X (ix3 (i 0) (i 1) d) * W (ix2 d (i 2))

/-- The scorer over projected rows A, B and parameters laid out as rows: first bias 1×512, second weights 512×256,
    last weights 1×256, second bias 1×256, last bias 1×1. -/
def pairRows (A : (⟨3, ![2, 1024, 512]⟩ : Shape).Idx → EReal) (B : (⟨3, ![2, 256, 512]⟩ : Shape).Idx → EReal)
    (c1 : (⟨2, ![1, 512]⟩ : Shape).Idx → EReal) (W2 : (⟨2, ![512, 256]⟩ : Shape).Idx → EReal)
    (w3 c2 : (⟨2, ![1, 256]⟩ : Shape).Idx → EReal) (c3 : (⟨2, ![1, 1]⟩ : Shape).Idx → EReal) :
    (⟨3, ![2, 1024, 256]⟩ : Shape).Idx → EReal :=
  fun i => (∑ k : Fin 256,
      max ((∑ h : Fin 512, max (A (ix3 (i 0) (i 1) h) + B (ix3 (i 0) (i 2) h) + c1 (ix2 (0 : Fin 1) h)) 0 * W2 (ix2 h k))
        + c2 (ix2 (0 : Fin 1) k)) 0 * w3 (ix2 (0 : Fin 1) k)) + c3 (ix2 (0 : Fin 1) (0 : Fin 1))

/-- The scorer as a function of the nine arguments. -/
def score (XA : (⟨3, ![2, 1024, 576]⟩ : Shape).Idx → EReal) (XB : (⟨3, ![2, 256, 576]⟩ : Shape).Idx → EReal)
    (W1a W1b : (⟨2, ![576, 512]⟩ : Shape).Idx → EReal) (b1 : (⟨1, ![512]⟩ : Shape).Idx → EReal)
    (W2 : (⟨2, ![512, 256]⟩ : Shape).Idx → EReal) (b2 : (⟨1, ![256]⟩ : Shape).Idx → EReal)
    (W3 : (⟨2, ![256, 1]⟩ : Shape).Idx → EReal) (b3 : (⟨1, ![1]⟩ : Shape).Idx → EReal) :
    (⟨3, ![2, 1024, 256]⟩ : Shape).Idx → EReal :=
  fun i => (∑ k : Fin 256,
      max ((∑ h : Fin 512, max (proj XA W1a (ix3 (i 0) (i 1) h) + proj XB W1b (ix3 (i 0) (i 2) h) + b1 (ix1 h)) 0
          * W2 (ix2 h k)) + b2 (ix1 k)) 0 * W3 (ix2 k (0 : Fin 1))) + b3 (ix1 (0 : Fin 1))

end Cert.PairMlp

end
-- ==== Proof.ProjArray.lean ====
/-
  From blocks to arrays for the two projection grids. Grid point (b, r) of a projection grid stages rows
  256·r … 256·r + 255 of batch b of its feature array and the whole weight matrix, and writes back the same rows of
  the output array; the body's block at (0, p, q) is the product's entry for row 256·r + p and column q. The output
  blocks tile the output array, so after the grid the array holds every row's projection.
-/
import proofs.«176340_j70798240907716_2_alg».proof.Proof.Gen.KernelIdeal.Frame
import proofs.«176340_j70798240907716_2_alg».proof.Proof.ProjBody
import proofs.«176340_j70798240907716_2_alg».proof.Proof.PairMlpSpec
import Idealize.ShloMosaic.Lib.Pipeline.Value

set_option maxRecDepth 16384

open scoped BigOperators

noncomputable section

namespace Cert.KernelIdeal.ProjArray

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The first projection grid: 2 × 4 points over the 2×1024×576 features -/

/-- The printed index maps over the grid: the feature window moves with the output window along the batch and row
    axes and both stay at column block zero; the weight window stays at block (0, 0). -/
theorem idx_facts0 : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_2.index t (2 : Fin 3) = 0
    ∧ win0_1.index t (0 : Fin 2) = 0 ∧ win0_1.index t (1 : Fin 2) = 0 :=
  (by decide +kernel : ∀ t : Fin grid0.N, _)

/-- Every (batch, row block) is some grid point's output block. -/
theorem idx_onto0 : ∀ (q0 : Fin 2) (q1 : Fin 4), ∃ t : Fin cfg0.N, win0_2.index t = ![q0.val, q1.val, 0] :=
  (by decide +kernel : ∀ (q0 : Fin 2) (q1 : Fin 4), ∃ t : Fin grid0.N, win0_2.index t = ![q0.val, q1.val, 0])

/-- What grid point t writes back is its block of the projected rows of the arrays the grid finds. -/
theorem flushed0_eq (c : Dev nD) (t : Fin cfg0.N) :
    (dat0 V c).flushed 2 t
      = ((cfg0.win 2).blk t).view.read (Elt Ideal) (PairMlp.proj (V c main_arg0) (V c main_arg2)) := by
  show (cfg0.win 2).cut (grid0.coords t) ((dat0 V c).after 2 t) = _
  rw [after0_2]
  unfold out0_2
  rw [View.canon_unit_zero hz3]
  simp only [View.ld_unit_zero (S := S1x256x576) hz3, View.ld_unit_zero (S := S576x512) hz2]
  obtain ⟨e0, e1, e2, e3, e4, e5⟩ := idx_facts0 t
  funext y
  obtain ⟨u, p, q, rfl⟩ : ∃ (u : Fin 1) (p : Fin 256) (q : Fin 512), y = ix3 u p q := ⟨y 0, y 1, y 2, eq_ix3 y⟩
  obtain rfl : u = 0 := Subsingleton.elim _ _
  show k0_pay1 (iblk0 V c 0 t) (iblk0 V c 1 t) (ix3 (0 : Fin 1) p q)
    = PairMlp.proj (V c main_arg0) (V c main_arg2) (((cfg0.win 2).blk t).view.emb (ix3 (0 : Fin 1) p q))
  refine (ProjBody.payload0_apply _ _ p q).trans ?_
  unfold PairMlp.proj
  refine Finset.sum_congr rfl fun d _ => congrArg₂ (· * ·) ?_ ?_
  · show V c main_arg0 (((cfg0.win 0).blk t).view.emb (ix3 (0 : Fin 1) p d)) = V c main_arg0 _
    refine congrArg _ (funext fun a => Fin.ext ?_)
    match a with
    | ⟨0, _⟩ =>
      show win0_0.index t (0 : Fin 3) * 1 + 1 * 0 = win0_2.index t (0 : Fin 3) * 1 + 1 * 0
      omega
    | ⟨1, _⟩ =>
      show win0_0.index t (1 : Fin 3) * 256 + 1 * p.val = win0_2.index t (1 : Fin 3) * 256 + 1 * p.val
      omega
    | ⟨2, _⟩ =>
      show win0_0.index t (2 : Fin 3) * 576 + 1 * d.val = d.val
      omega
  · show V c main_arg2 (((cfg0.win 1).blk t).view.emb (ix2 d q)) = V c main_arg2 _
    refine congrArg _ (funext fun a => Fin.ext ?_)
    match a with
    | ⟨0, _⟩ =>
      show win0_1.index t (0 : Fin 2) * 576 + 1 * d.val = d.val
      omega
    | ⟨1, _⟩ =>
      show win0_1.index t (1 : Fin 2) * 512 + 1 * q.val = win0_2.index t (2 : Fin 3) * 512 + 1 * q.val
      omega

/-- An index of the output array is in point t's block iff each coordinate is in the block's range on its axis. -/
theorem mem_blk0 (t : Fin cfg0.N) (i : S2x1024x512.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v0).slice (win0_2.rect t)).set ↔ _
  rw [View.set_slice_whole, Rect.mem_set_unit]
  exact Iff.rfl

/-- The blocks tile the output array: row r of batch b lies in the block of point (b, r / 256). -/
theorem cover0 (i : S2x1024x512.Idx) :
    ∃ t : Fin cfg0.N, (cfg0.win 2).flush t = true ∧ i ∈ ((cfg0.win 2).blk t).view.set := by
  have hi0 : (i 0).val < 2 := (i 0).isLt
  have hi1 : (i 1).val < 1024 := (i 1).isLt
  have hi2 : (i 2).val < 512 := (i 2).isLt
  obtain ⟨t, ht⟩ := idx_onto0 ⟨(i 0).val, hi0⟩ ⟨(i 1).val / 256, by omega⟩
  have q0 : win0_2.index t (0 : Fin 3) = (i 0).val := congrFun ht 0
  have q1 : win0_2.index t (1 : Fin 3) = (i 1).val / 256 := congrFun ht 1
  have q2 : win0_2.index t (2 : Fin 3) = 0 := congrFun ht 2
  refine ⟨t, flush0_2 t, ?_⟩
  rw [mem_blk0]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 256 ≤ (i 1).val ∧ (i 1).val < win0_2.index t (1 : Fin 3) * 256 + 256
    omega
  | ⟨2, _⟩ =>
    show win0_2.index t (2 : Fin 3) * 512 ≤ (i 2).val ∧ (i 2).val < win0_2.index t (2 : Fin 3) * 512 + 512
    omega

/-- After the grid, its output array holds the projected rows. -/
theorem final0 (c : Dev nD) : (dat0 V c).arrAt 2 cfg0.N = PairMlp.proj (V c main_arg0) (V c main_arg2) :=
  (dat0 V c).arrAt_eq_of_cover 2 _ (fun t _ => flushed0_eq V c t) cover0

/-! ## The second projection grid: 2 × 1 points over the 2×256×576 features -/

/-- The printed index maps over the grid: the feature window moves with the output window along the batch and row
    axes and both stay at column block zero; the weight window stays at block (0, 0). -/
theorem idx_facts1 : ∀ t : Fin cfg1.N,
    win1_0.index t (0 : Fin 3) = win1_2.index t (0 : Fin 3) ∧ win1_0.index t (1 : Fin 3) = win1_2.index t (1 : Fin 3)
    ∧ win1_0.index t (2 : Fin 3) = 0 ∧ win1_2.index t (2 : Fin 3) = 0
    ∧ win1_1.index t (0 : Fin 2) = 0 ∧ win1_1.index t (1 : Fin 2) = 0 :=
  (by decide +kernel : ∀ t : Fin grid1.N, _)

/-- Every (batch, row block) is some grid point's output block. -/
theorem idx_onto1 : ∀ (q0 : Fin 2) (q1 : Fin 1), ∃ t : Fin cfg1.N, win1_2.index t = ![q0.val, q1.val, 0] :=
  (by decide +kernel : ∀ (q0 : Fin 2) (q1 : Fin 1), ∃ t : Fin grid1.N, win1_2.index t = ![q0.val, q1.val, 0])

/-- What grid point t writes back is its block of the projected rows of the arrays the grid finds. -/
theorem flushed1_eq (c : Dev nD) (t : Fin cfg1.N) :
    (dat1 V c).flushed 2 t
      = ((cfg1.win 2).blk t).view.read (Elt Ideal) (PairMlp.proj (V c main_arg1) (V c main_arg3)) := by
  show (cfg1.win 2).cut (grid1.coords t) ((dat1 V c).after 2 t) = _
  rw [after1_2]
  unfold out1_2
  rw [View.canon_unit_zero hz3]
  simp only [View.ld_unit_zero (S := S1x256x576) hz3, View.ld_unit_zero (S := S576x512) hz2]
  obtain ⟨e0, e1, e2, e3, e4, e5⟩ := idx_facts1 t
  funext y
  obtain ⟨u, p, q, rfl⟩ : ∃ (u : Fin 1) (p : Fin 256) (q : Fin 512), y = ix3 u p q := ⟨y 0, y 1, y 2, eq_ix3 y⟩
  obtain rfl : u = 0 := Subsingleton.elim _ _
  show k1_pay1 (iblk1 V c 0 t) (iblk1 V c 1 t) (ix3 (0 : Fin 1) p q)
    = PairMlp.proj (V c main_arg1) (V c main_arg3) (((cfg1.win 2).blk t).view.emb (ix3 (0 : Fin 1) p q))
  refine (ProjBody.payload1_apply _ _ p q).trans ?_
  unfold PairMlp.proj
  refine Finset.sum_congr rfl fun d _ => congrArg₂ (· * ·) ?_ ?_
  · show V c main_arg1 (((cfg1.win 0).blk t).view.emb (ix3 (0 : Fin 1) p d)) = V c main_arg1 _
    refine congrArg _ (funext fun a => Fin.ext ?_)
    match a with
    | ⟨0, _⟩ =>
      show win1_0.index t (0 : Fin 3) * 1 + 1 * 0 = win1_2.index t (0 : Fin 3) * 1 + 1 * 0
      omega
    | ⟨1, _⟩ =>
      show win1_0.index t (1 : Fin 3) * 256 + 1 * p.val = win1_2.index t (1 : Fin 3) * 256 + 1 * p.val
      omega
    | ⟨2, _⟩ =>
      show win1_0.index t (2 : Fin 3) * 576 + 1 * d.val = d.val
      omega
  · show V c main_arg3 (((cfg1.win 1).blk t).view.emb (ix2 d q)) = V c main_arg3 _
    refine congrArg _ (funext fun a => Fin.ext ?_)
    match a with
    | ⟨0, _⟩ =>
      show win1_1.index t (0 : Fin 2) * 576 + 1 * d.val = d.val
      omega
    | ⟨1, _⟩ =>
      show win1_1.index t (1 : Fin 2) * 512 + 1 * q.val = win1_2.index t (2 : Fin 3) * 512 + 1 * q.val
      omega

/-- An index of the output array is in point t's block iff each coordinate is in the block's range on its axis. -/
theorem mem_blk1 (t : Fin cfg1.N) (i : S2x256x512.Idx) :
    i ∈ ((cfg1.win 2).blk t).view.set ↔ ∀ a : Fin 3, win1_2.index t a * S1x256x512.size a ≤ (i a).val
      ∧ (i a).val < win1_2.index t a * S1x256x512.size a + S1x256x512.size a := by
  show i ∈ ((View.whole main_v1).slice (win1_2.rect t)).set ↔ _
  rw [View.set_slice_whole, Rect.mem_set_unit]
  exact Iff.rfl

/-- The blocks tile the output array: row r of batch b lies in the block of point (b, r / 256). -/
theorem cover1 (i : S2x256x512.Idx) :
    ∃ t : Fin cfg1.N, (cfg1.win 2).flush t = true ∧ i ∈ ((cfg1.win 2).blk t).view.set := by
  have hi0 : (i 0).val < 2 := (i 0).isLt
  have hi1 : (i 1).val < 256 := (i 1).isLt
  have hi2 : (i 2).val < 512 := (i 2).isLt
  obtain ⟨t, ht⟩ := idx_onto1 ⟨(i 0).val, hi0⟩ ⟨(i 1).val / 256, by omega⟩
  have q0 : win1_2.index t (0 : Fin 3) = (i 0).val := congrFun ht 0
  have q1 : win1_2.index t (1 : Fin 3) = (i 1).val / 256 := congrFun ht 1
  have q2 : win1_2.index t (2 : Fin 3) = 0 := congrFun ht 2
  refine ⟨t, flush1_2 t, ?_⟩
  rw [mem_blk1]
  intro a
  match a with
  | ⟨0, _⟩ =>
    show win1_2.index t (0 : Fin 3) * 1 ≤ (i 0).val ∧ (i 0).val < win1_2.index t (0 : Fin 3) * 1 + 1
    omega
  | ⟨1, _⟩ =>
    show win1_2.index t (1 : Fin 3) * 256 ≤ (i 1).val ∧ (i 1).val < win1_2.index t (1 : Fin 3) * 256 + 256
    omega
  | ⟨2, _⟩ =>
    show win1_2.index t (2 : Fin 3) * 512 ≤ (i 2).val ∧ (i 2).val < win1_2.index t (2 : Fin 3) * 512 + 512
    omega

/-- After the grid, its output array holds the projected rows. -/
theorem final1 (c : Dev nD) : (dat1 V c).arrAt 2 cfg1.N = PairMlp.proj (V c main_arg1) (V c main_arg3) :=
  (dat1 V c).arrAt_eq_of_cover 2 _ (fun t _ => flushed1_eq V c t) cover1

end Cert.KernelIdeal.ProjArray

end
-- ==== Proof.LibAxisBroadcasts.lean ====
/-
  Layout operations that put a vector or a matrix beside a rank-3 block, read at an index: a matrix a×c made a×1×c
  and repeated along the middle axis, a vector of length c made 1×1×c and repeated along the two leading axes, and
  the row-major merge of the two leading axes of an a×b×c block into one axis of n = a·b rows and its inverse.
  Nothing here mentions a program.
-/
import Idealize.ShloMosaic.Lib.ValueIdx
import Idealize.ShloMosaic.Lib.Pipeline.Value

namespace Cert.Lib.AxisBroadcasts

open Idealize.ShloMosaic Idealize.ShloMosaic.ValueIdx

variable {α : Type} {a b c n : Nat}

/-- An a×c matrix viewed as a×1×c and broadcast along a new middle axis of extent b reads the matrix at (p, r). -/
theorem broadcast_mid_apply (x : (⟨2, ![a, c]⟩ : Shape).Idx → α)
    (h₁ : (⟨2, ![a, c]⟩ : Shape).ShapeCasts ⟨3, ![a, 1, c]⟩)
    (h₂ : (⟨3, ![a, 1, c]⟩ : Shape).Broadcasts ⟨3, ![a, b, c]⟩) (p : Fin a) (q : Fin b) (r : Fin c) :
    broadcastTo ⟨3, ![a, b, c]⟩ (shapeCast ⟨3, ![a, 1, c]⟩ x h₁) h₂ (ix3 p q r) = x (ix2 p r) := by
  refine (broadcastTo_apply _ h₂ _ (ix3 p (0 : Fin 1) r) fun ax => ?_).trans ?_
  · match ax with
    | ⟨0, _⟩ =>
      show p.val = if a = 1 then 0 else p.val
      split_ifs with ha
      · have := p.isLt; omega
      · rfl
    | ⟨1, _⟩ => rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show p.val * c + r.val = (p.val * 1 + 0) * c + r.val
    rw [Nat.mul_one, Nat.add_zero]

/-- A vector of length c viewed as 1×1×c and broadcast along two new leading axes reads the vector at r. -/
theorem broadcast_vec_apply (x : (⟨1, ![c]⟩ : Shape).Idx → α)
    (h₁ : (⟨1, ![c]⟩ : Shape).ShapeCasts ⟨3, ![1, 1, c]⟩)
    (h₂ : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ x h₁) h₂ (ix3 p q r) = x (ix1 r) := by
  refine (broadcastTo_apply _ h₂ _ (ix3 (0 : Fin 1) (0 : Fin 1) r) fun ax => ?_).trans ?_
  · match ax with
    | ⟨0, _⟩ => rfl
    | ⟨1, _⟩ => rfl
    | ⟨2, _⟩ =>
      show r.val = if c = 1 then 0 else r.val
      split_ifs with hc
      · have := r.isLt; omega
      · rfl
  · refine shapeCast_apply x h₁ _ _ ?_
    rw [Shape.rowMajor_val_one, Shape.rowMajor_val_three]
    show r.val = ((0 : Nat) * 1 + 0) * c + r.val
    simp

/-- An n×c matrix, n = a·b, viewed as a×b×c reads at (p, q, r) its row p·b + q. -/
theorem shapeCast_split_apply (x : (⟨2, ![n, c]⟩ : Shape).Idx → α)
    (h : (⟨2, ![n, c]⟩ : Shape).ShapeCasts ⟨3, ![a, b, c]⟩) (p : Fin a) (q : Fin b) (r : Fin c) (j : Fin n)
    (hj : j.val = p.val * b + q.val) : shapeCast ⟨3, ![a, b, c]⟩ x h (ix3 p q r) = x (ix2 j r) :=
  shapeCast_apply x h _ _ (by
    rw [Shape.rowMajor_val_two, Shape.rowMajor_val_three]
    show j.val * c + r.val = (p.val * b + q.val) * c + r.val
    rw [hj])

/-- An a×b×c block viewed as an n×c matrix, n = a·b, reads at row p·b + q, column r, the block at (p, q, r). -/
theorem shapeCast_merge_apply (x : (⟨3, ![a, b, c]⟩ : Shape).Idx → α)
    (h : (⟨3, ![a, b, c]⟩ : Shape).ShapeCasts ⟨2, ![n, c]⟩) (p : Fin a) (q : Fin b) (r : Fin c) (j : Fin n)
    (hj : j.val = p.val * b + q.val) : shapeCast ⟨2, ![n, c]⟩ x h (ix2 j r) = x (ix3 p q r) :=
  shapeCast_apply x h _ _ (by
    rw [Shape.rowMajor_val_two, Shape.rowMajor_val_three]
    show (p.val * b + q.val) * c + r.val = j.val * c + r.val
    rw [hj])

end Cert.Lib.AxisBroadcasts
-- ==== Proof.PairBody.lean ====
/-
  The pairwise kernel's body at an index. One grid point loads a 1×64×512 block a of projected rows, a 1×128×512
  block b of projected rows, the 1×512 first bias, the 512×256 second weight matrix, the 1×256 last weights, the
  1×256 second bias and the 1×1 last bias. It forms max(a(p, ·) + b(q, ·) + bias, 0) for every pair (p, q), multiplies
  the 8192×512 matrix of these rows by the second weights into a zero accumulator, adds the second bias, takes the
  maximum with zero, multiplies by the last weights, sums along the last axis and adds the last bias.
  On the extended reals a change of float format is the identity and both zero literals are the number zero.
-/
import proofs.«176340_j70798240907716_2_alg».proof.Proof.Gen.KernelIdeal.Skeleton
import proofs.«176340_j70798240907716_2_alg».proof.Proof.LibBlockReads
import proofs.«176340_j70798240907716_2_alg».proof.Proof.LibAxisBroadcasts
import Idealize.ShloMosaic.Lib.ValueLayout

open scoped BigOperators

noncomputable section

namespace Cert.KernelIdeal.PairBody

open Cert.KernelIdeal Cert.KernelIdeal.Gen Idealize.ShloMosaic Idealize.ShloMosaic.ValueIdx
open Cert.Lib.BlockReads Cert.Lib.AxisBroadcasts

/-- The bf16 zero pattern denotes zero. -/
theorem ofBits_zero_bf16 : Ideal.ofBits .bf16 0x0000#16 = 0 := by simp [Ideal.ofBits, Ideal.ieee]

/-- The hidden value of the pair (p, q) at unit k, before the last sum: the second layer's activation times the last
    weight. -/
def hidden (a : Vec Ideal S1x64x512 .f32) (b : Vec Ideal S1x128x512 .f32) (c1 : Vec Ideal S1x512 .f32)
    (w2 : Vec Ideal S512x256 .f32) (c2 w3 : Vec Ideal S1x256 .f32) (p : Fin 64) (q : Fin 128) (k : Fin 256) : EReal :=
  max ((∑ h : Fin 512, max (a (ix3 (0 : Fin 1) p h) + b (ix3 (0 : Fin 1) q h) + c1 (ix2 (0 : Fin 1) h)) 0 * w2 (ix2 h k))
      + c2 (ix2 (0 : Fin 1) k)) 0 * w3 (ix2 (0 : Fin 1) k)

/-- The body's 64×128×256 intermediate at (p, q, k). -/
theorem pay2_apply (v0 : Vec Ideal S1x64x512 .f32) (v3 : Vec Ideal S1x128x512 .f32) (v6 : Vec Ideal S1x512 .f32)
    (v21 : Vec Ideal S512x256 .f32) (v25 v33 : Vec Ideal S1x256 .f32) (p : Fin 64) (q : Fin 128) (k : Fin 256) :
    k2_pay2 (F := Ideal) v0 v3 v6 v21 v25 v33 (ix3 p q k) = hidden v0 v3 v6 v21 v25 v33 p q k := by
  unfold k2_pay2 hidden
  refine (mulf_apply _ _ _).trans (congrArg₂ (· * ·) ?_ ?_)
  · refine (maximumf_apply _ _ _).trans (congrArg₂ max ?_ Ideal.ofBits_zero_f32)
    refine (addf_apply _ _ _).trans (congrArg₂ (· + ·) ?_ ?_)
    · refine (shapeCast_split_apply _ _ p q k ⟨p.val * 128 + q.val, by omega⟩ rfl).trans ?_
      refine (matmul_zero_rows_apply _ rfl rfl rfl rfl rfl rfl none _ _ _ k).trans ?_
      refine Finset.sum_congr rfl fun h _ => congrArg (· * v21 (ix2 h k)) ?_
      refine (shapeCast_merge_apply _ _ p q h ⟨p.val * 128 + q.val, by omega⟩ rfl).trans ?_
      refine (maximumf_apply _ _ _).trans (congrArg₂ max ?_ ofBits_zero_bf16)
      refine (addf_apply _ _ _).trans (congrArg₂ (· + ·) ?_ ?_)
      · refine (addf_apply _ _ _).trans (congrArg₂ (· + ·) ?_ ?_)
        · exact (broadcast_mid_apply _ _ _ p q h).trans (shapeCast_1ab_ab_apply v0 _ p h)
        · exact (broadcast_slab_apply _ _ _ p q h).trans (shapeCast_1ab_ab_apply v3 _ q h)
      · refine (broadcast_vec_apply _ _ _ p q h).trans ?_
        refine (truncf_apply (φ := .f32) (ψ := .bf16) _ bitsLt_bf16_f32 (ix1 h)).trans ?_
        refine (shapeCast_1a_a_apply _ _ h).trans ?_
        exact congrFun (shapeCast_self v6 _) _
    · refine (broadcast_vec_apply _ _ _ p q k).trans ?_
      refine (shapeCast_1a_a_apply _ _ k).trans ?_
      exact congrFun (shapeCast_self v25 _) _
  · refine (broadcast_vec_apply _ _ _ p q k).trans ?_
    refine (shapeCast_1a_a_apply _ _ k).trans ?_
    exact congrFun (shapeCast_self v33 _) _

/-- The stored 1×64×128 block at (0, p, q): the sum over the 256 units of the pair's hidden values, plus the last bias. -/
theorem pay1_apply (v38 : FVec Ideal S64x128x256 .f32) (v40 : Vec Ideal S1x1 .f32) (p : Fin 64) (q : Fin 128) :
    k2_pay1 (F := Ideal) v38 v40 (ix3 (0 : Fin 1) p q)
      = (∑ k : Fin 256, v38 (ix3 p q k)) + v40 (ix2 (0 : Fin 1) (0 : Fin 1)) := by
  unfold k2_pay1
  refine (shapeCast_ab_1ab_apply _ _ 0 p q).trans ?_
  refine (addf_apply _ _ _).trans (congrArg₂ (· + ·) ?_ ?_)
  · exact sum_last_axis_apply v38 _ _ _ _ p q
  · show v40 _ = v40 _
    refine congrArg v40 (funext fun ax => ?_)
    match ax with
    | ⟨0, _⟩ => rfl
    | ⟨1, _⟩ => rfl

end Cert.KernelIdeal.PairBody

end
-- ==== Proof.PairArray.lean ====
/-
  From blocks to the array for the pairwise grid. Grid point (b, r, s) stages rows 64·r … 64·r + 63 of batch b of the
  first projected array, rows 128·s … 128·s + 127 of batch b of the second, and the five parameter arrays whole; it
  writes back the 1×64×128 block of scores of those row pairs. The body's block at (0, p, q) is the scorer at rows
  64·r + p and 128·s + q, and the output blocks tile the 2×1024×256 result.
-/
import proofs.«176340_j70798240907716_2_alg».proof.Proof.Gen.KernelIdeal.Frame
import proofs.«176340_j70798240907716_2_alg».proof.Proof.PairBody
import proofs.«176340_j70798240907716_2_alg».proof.Proof.PairMlpSpec
import Idealize.ShloMosaic.Lib.Pipeline.Value

set_option maxRecDepth 16384

open scoped BigOperators

noncomputable section

namespace Cert.KernelIdeal.PairArray

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps over the grid: the first projected window follows the output's batch and row block, the
    second its batch and column block, both at feature block zero; the five parameter windows stay at block (0, 0). -/
theorem idx_facts : ∀ t : Fin cfg2.N,
    win2_0.index t (0 : Fin 3) = win2_7.index t (0 : Fin 3) ∧ win2_0.index t (1 : Fin 3) = win2_7.index t (1 : Fin 3)
    ∧ win2_0.index t (2 : Fin 3) = 0
    ∧ win2_1.index t (0 : Fin 3) = win2_7.index t (0 : Fin 3) ∧ win2_1.index t (1 : Fin 3) = win2_7.index t (2 : Fin 3)
    ∧ win2_1.index t (2 : Fin 3) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Every (batch, row block, column block) is some grid point's output block. -/
theorem idx_onto : ∀ (q0 : Fin 2) (q1 : Fin 16) (q2 : Fin 2), ∃ t : Fin cfg2.N, win2_7.index t = ![q0.val, q1.val, q2.val] :=
  (by decide +kernel : ∀ (q0 : Fin 2) (q1 : Fin 16) (q2 : Fin 2), ∃ t : Fin grid2.N, win2_7.index t = ![q0.val, q1.val, q2.val])

/-- What grid point t writes back is its block of the scorer over the arrays the grid finds. -/
theorem flushed_eq (c : Dev nD) (t : Fin cfg2.N) :
    (dat2 V c).flushed 7 t = ((cfg2.win 7).blk t).view.read (Elt Ideal)
      (PairMlp.pairRows (V c main_v0) (V c main_v1) (V c main_v2) (V c main_arg5) (V c main_v6) (V c main_v3) (V c main_v4)) := by
  show (cfg2.win 7).cut (grid2.coords t) ((dat2 V c).after 7 t) = _
  rw [after2_7]
  unfold out2_7
  rw [View.canon_unit_zero hz3]
  simp only [View.ld_unit_zero (S := S1x64x512) hz3, View.ld_unit_zero (S := S1x128x512) hz3,
    View.ld_unit_zero (S := S1x512) hz2, View.ld_unit_zero (S := S512x256) hz2, View.ld_unit_zero (S := S1x256) hz2,
    View.ld_unit_zero (S := S1x1) hz2]
  obtain ⟨a0, a1, a2, b0, b1, b2, c0, c1, d0, d1, f0, f1, g0, g1, k0, k1⟩ := idx_facts t
  funext y
  obtain ⟨u, p, q, rfl⟩ : ∃ (u : Fin 1) (p : Fin 64) (q : Fin 128), y = ix3 u p q := ⟨y 0, y 1, y 2, eq_ix3 y⟩
  obtain rfl : u = 0 := Subsingleton.elim _ _
  show k2_pay1 (k2_pay2 (iblk2 V c 0 t) (iblk2 V c 1 t) (iblk2 V c 2 t) (iblk2 V c 3 t) (iblk2 V c 5 t) (iblk2 V c 4 t))
      (iblk2 V c 6 t) (ix3 (0 : Fin 1) p q)
    = PairMlp.pairRows (V c main_v0) (V c main_v1) (V c main_v2) (V c main_arg5) (V c main_v6) (V c main_v3) (V c main_v4)
      (((cfg2.win 7).blk t).view.emb (ix3 (0 : Fin 1) p q))
  refine (PairBody.pay1_apply _ _ p q).trans ?_
  unfold PairMlp.pairRows
  refine congrArg₂ (· + ·) (Finset.sum_congr rfl fun k _ => ?_) ?_
  · refine (PairBody.pay2_apply _ _ _ _ _ _ p q k).trans ?_
    unfold PairBody.hidden
    refine congrArg₂ (· * ·) (congrArg₂ max (congrArg₂ (· + ·) (Finset.sum_congr rfl fun h _ =>
      congrArg₂ (· * ·) (congrArg₂ max (congrArg₂ (· + ·) (congrArg₂ (· + ·) ?_ ?_) ?_) rfl) ?_) ?_) rfl) ?_
    · show V c main_v0 (((cfg2.win 0).blk t).view.emb (ix3 (0 : Fin 1) p h)) = V c main_v0 _
      refine congrArg _ (funext fun a => Fin.ext ?_)
      match a with
      | ⟨0, _⟩ =>
        show win2_0.index t (0 : Fin 3) * 1 + 1 * 0 = win2_7.index t (0 : Fin 3) * 1 + 1 * 0
        omega
      | ⟨1, _⟩ =>
        show win2_0.index t (1 : Fin 3) * 64 + 1 * p.val = win2_7.index t (1 : Fin 3) * 64 + 1 * p.val
        omega
      | ⟨2, _⟩ =>
        show win2_0.index t (2 : Fin 3) * 512 + 1 * h.val = h.val
        omega
    · show V c main_v1 (((cfg2.win 1).blk t).view.emb (ix3 (0 : Fin 1) q h)) = V c main_v1 _
      refine congrArg _ (funext fun a => Fin.ext ?_)
      match a with
      | ⟨0, _⟩ =>
        show win2_1.index t (0 : Fin 3) * 1 + 1 * 0 = win2_7.index t (0 : Fin 3) * 1 + 1 * 0
        omega
      | ⟨1, _⟩ =>
        show win2_1.index t (1 : Fin 3) * 128 + 1 * q.val = win2_7.index t (2 : Fin 3) * 128 + 1 * q.val
        omega
      | ⟨2, _⟩ =>
        show win2_1.index t (2 : Fin 3) * 512 + 1 * h.val = h.val
        omega
    · show V c main_v2 (((cfg2.win 2).blk t).view.emb (ix2 (0 : Fin 1) h)) = V c main_v2 _
      refine congrArg _ (funext fun a => Fin.ext ?_)
      match a with
      | ⟨0, _⟩ =>
        show win2_2.index t (0 : Fin 2) * 1 + 1 * 0 = 0
        omega
      | ⟨1, _⟩ =>
        show win2_2.index t (1 : Fin 2) * 512 + 1 * h.val = h.val
        omega
    · show V c main_arg5 (((cfg2.win 3).blk t).view.emb (ix2 h k)) = V c main_arg5 _
      refine congrArg _ (funext fun a => Fin.ext ?_)
      match a with
      | ⟨0, _⟩ =>
        show win2_3.index t (0 : Fin 2) * 512 + 1 * h.val = h.val
        omega
      | ⟨1, _⟩ =>
        show win2_3.index t (1 : Fin 2) * 256 + 1 * k.val = k.val
        omega
    · show V c main_v3 (((cfg2.win 5).blk t).view.emb (ix2 (0 : Fin 1) k)) = V c main_v3 _
      refine congrArg _ (funext fun a => Fin.ext ?_)
      match a with
      | ⟨0, _⟩ =>
        show win2_5.index t (0 : Fin 2) * 1 + 1 * 0 = 0
        omega
      | ⟨1, _⟩ =>
        show win2_5.index t (1 : Fin 2) * 256 + 1 * k.val = k.val
        omega
    · show V c main_v6 (((cfg2.win 4).blk t).view.emb (ix2 (0 : Fin 1) k)) = V c main_v6 _
      refine congrArg _ (funext fun a => Fin.ext ?_)
      match a with
      | ⟨0, _⟩ =>
        show win2_4.index t (0 : Fin 2) * 1 + 1 * 0 = 0
        omega
      | ⟨1, _⟩ =>
        show win2_4.index t (1 : Fin 2) * 256 + 1 * k.val = k.val
        omega
  · show V c main_v4 (((cfg2.win 6).blk t).view.emb (ix2 (0 : Fin 1) (0 : Fin 1))) = V c main_v4 _
    refine congrArg _ (funext fun a => Fin.ext ?_)
    match a with
    | ⟨0, _⟩ =>
      show win2_6.index t (0 : Fin 2) * 1 + 1 * 0 = 0
      omega
    | ⟨1, _⟩ =>
      show win2_6.index t (1 : Fin 2) * 1 + 1 * 0 = 0
      omega

/-- An index of the result is in point t's block iff each coordinate is in the block's range on its axis. -/
theorem mem_blk (t : Fin cfg2.N) (i : S2x1024x256.Idx) :
    i ∈ ((cfg2.win 7).blk t).view.set ↔ ∀ a : Fin 3, win2_7.index t a * S1x64x128.size a ≤ (i a).val
      ∧ (i a).val < win2_7.index t a * S1x64x128.size a + S1x64x128.size a := by
  show i ∈ ((View.whole main_v7).slice (win2_7.rect t)).set ↔ _
  rw [View.set_slice_whole, Rect.mem_set_unit]
  exact Iff.rfl

/-- The blocks tile the result: entry (b, n, m) lies in the block of point (b, n / 64, m / 128). -/
theorem cover (i : S2x1024x256.Idx) :
    ∃ t : Fin cfg2.N, (cfg2.win 7).flush t = true ∧ i ∈ ((cfg2.win 7).blk t).view.set := by
  have hi0 : (i 0).val < 2 := (i 0).isLt
  have hi1 : (i 1).val < 1024 := (i 1).isLt
  have hi2 : (i 2).val < 256 := (i 2).isLt
  obtain ⟨t, ht⟩ := idx_onto ⟨(i 0).val, hi0⟩ ⟨(i 1).val / 64, by omega⟩ ⟨(i 2).val / 128, by omega⟩
  have q0 : win2_7.index t (0 : Fin 3) = (i 0).val := congrFun ht 0
  have q1 : win2_7.index t (1 : Fin 3) = (i 1).val / 64 := congrFun ht 1
  have q2 : win2_7.index t (2 : Fin 3) = (i 2).val / 128 := congrFun ht 2
  refine ⟨t, flush2_7 t, ?_⟩
  rw [mem_blk]
  intro a
  match a with
  | ⟨0, _⟩ =>
    show win2_7.index t (0 : Fin 3) * 1 ≤ (i 0).val ∧ (i 0).val < win2_7.index t (0 : Fin 3) * 1 + 1
    omega
  | ⟨1, _⟩ =>
    show win2_7.index t (1 : Fin 3) * 64 ≤ (i 1).val ∧ (i 1).val < win2_7.index t (1 : Fin 3) * 64 + 64
    omega
  | ⟨2, _⟩ =>
    show win2_7.index t (2 : Fin 3) * 128 ≤ (i 2).val ∧ (i 2).val < win2_7.index t (2 : Fin 3) * 128 + 128
    omega

/-- After the grid, the result array holds the scorer of the arrays the grid found. -/
theorem final (c : Dev nD) : (dat2 V c).arrAt 7 cfg2.N
    = PairMlp.pairRows (V c main_v0) (V c main_v1) (V c main_v2) (V c main_arg5) (V c main_v6) (V c main_v3) (V c main_v4) :=
  (dat2 V c).arrAt_eq_of_cover 7 _ (fun t _ => flushed_eq V c t) cover

end Cert.KernelIdeal.PairArray

end
-- ==== Proof.PairMlpRows.lean ====
/-
  The scorer over row-shaped parameters is the scorer over the parameters as given: a vector of length c made a 1×c
  row reads the vector, and the 256×1 last weight column flattened to 256 entries and made a 1×256 row reads the column.
-/
import proofs.«176340_j70798240907716_2_alg».proof.Proof.PairMlpSpec
import Idealize.ShloMosaic.Lib.Pipeline.Value
import Idealize.ShloMosaic.Lib.ValueLayout

open scoped BigOperators

noncomputable section

namespace Cert.PairMlp

open Idealize.ShloMosaic Idealize.ShloMosaic.ValueIdx

/-- A c×1 column flattened to a vector of length c reads the column at (k, 0). -/
theorem column_flat_apply {α : Type} {c : Nat} (x : (⟨2, ![c, 1]⟩ : Shape).Idx → α)
    (h : (⟨2, ![c, 1]⟩ : Shape).ShapeCasts ⟨1, ![c]⟩) (k : Fin c) :
    shapeCast ⟨1, ![c]⟩ x h (ix1 k) = x (ix2 k (0 : Fin 1)) :=
  shapeCast_apply x h _ _ (by
    rw [Shape.rowMajor_val_two, Shape.rowMajor_val_one]
    show k.val * 1 + 0 = k.val
    rw [Nat.mul_one, Nat.add_zero])

/-- With the biases and the last weights laid out as rows, the scorer over projected rows is the scorer of the nine
    arguments. -/
theorem pairRows_rows (XA : (⟨3, ![2, 1024, 576]⟩ : Shape).Idx → EReal) (XB : (⟨3, ![2, 256, 576]⟩ : Shape).Idx → EReal)
    (W1a W1b : (⟨2, ![576, 512]⟩ : Shape).Idx → EReal) (b1 : (⟨1, ![512]⟩ : Shape).Idx → EReal)
    (W2 : (⟨2, ![512, 256]⟩ : Shape).Idx → EReal) (b2 : (⟨1, ![256]⟩ : Shape).Idx → EReal)
    (W3 : (⟨2, ![256, 1]⟩ : Shape).Idx → EReal) (b3 : (⟨1, ![1]⟩ : Shape).Idx → EReal)
    (h1 : (⟨1, ![512]⟩ : Shape).ShapeCasts ⟨2, ![1, 512]⟩) (h2 : (⟨2, ![256, 1]⟩ : Shape).ShapeCasts ⟨1, ![256]⟩)
    (h3 : (⟨1, ![256]⟩ : Shape).ShapeCasts ⟨2, ![1, 256]⟩) (h5 : (⟨1, ![1]⟩ : Shape).ShapeCasts ⟨2, ![1, 1]⟩) :
    pairRows (proj XA W1a) (proj XB W1b) (shapeCast ⟨2, ![1, 512]⟩ b1 h1) W2
        (shapeCast ⟨2, ![1, 256]⟩ (shapeCast ⟨1, ![256]⟩ W3 h2) h3) (shapeCast ⟨2, ![1, 256]⟩ b2 h3)
        (shapeCast ⟨2, ![1, 1]⟩ b3 h5)
      = score XA XB W1a W1b b1 W2 b2 W3 b3 := by
  funext i
  unfold pairRows score
  simp only [shapeCast_a_1a_apply, column_flat_apply]

end Cert.PairMlp

end
-- ==== Proof.KernelValue.lean ====
/-
  The idealized kernel's result as one function of its arguments. The last boundary's contents at the result buffer
  are what the pairwise grid leaves: the scorer of the arrays that grid finds. Of those, the two projected arrays are
  what the two projection grids left (no later step writes them), the second weights are an argument, and the four
  row-shaped parameters are reshapes of arguments; every argument is read back through the boundaries to the launch
  memory. Put together, the result is the scorer of the nine arguments.
-/
import proofs.«176340_j70798240907716_2_alg».proof.Proof.KernelRun
import proofs.«176340_j70798240907716_2_alg».proof.Proof.ProjArray
import proofs.«176340_j70798240907716_2_alg».proof.Proof.PairArray
import proofs.«176340_j70798240907716_2_alg».proof.Proof.PairMlpRows
import Idealize.ShloMosaic.Lib.StableHlo.Run

set_option maxRecDepth 16384

noncomputable section

namespace Cert.KernelIdeal.Result

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-- An argument no projection grid writes is, after both, what it was at launch. -/
theorem W2_arg (c : Dev nD) (b : Ref sig .tc) (h0 : ∀ w, Pipeline.arrRef spec0 w ≠ b) (h1 : ∀ w, Pipeline.arrRef spec1 w ≠ b) :
    W2 m ρ c (Proc.devRef .tc b) = m ((c : Thread nD τ).loc b) :=
  (W2_of_ne m ρ c b h1).trans ((W1_of_ne m ρ c b h0).trans rfl)

/-- The first projected array when the pairwise grid starts: the first grid's rows, untouched since. -/
theorem entry_v0 (c : Dev nD) : V3 m ρ c main_v0
    = PairMlp.proj (m ((c : Thread nD τ).loc main_arg0)) (m ((c : Thread nD τ).loc main_arg2)) := by
  show StableHlo.after hostOps2 (W2 m ρ c) (Proc.devRef .tc main_v0) = _
  after_results
  refine (W2_of_ne m ρ c main_v0 (by decide)).trans ?_
  refine (W1_arr m ρ c 2).trans ?_
  exact ProjArray.final0 (V0 m ρ) c

/-- The second projected array when the pairwise grid starts: the second grid's rows of the launch arguments. -/
theorem entry_v1 (c : Dev nD) : V3 m ρ c main_v1
    = PairMlp.proj (m ((c : Thread nD τ).loc main_arg1)) (m ((c : Thread nD τ).loc main_arg3)) := by
  show StableHlo.after hostOps2 (W2 m ρ c) (Proc.devRef .tc main_v1) = _
  after_results
  refine (W2_arr m ρ c 2).trans ?_
  refine (ProjArray.final1 (V1 m ρ) c).trans ?_
  have e1 : V1 m ρ c main_arg1 = m ((c : Thread nD τ).loc main_arg1) := (W1_of_ne m ρ c main_arg1 (by decide)).trans rfl
  have e3 : V1 m ρ c main_arg3 = m ((c : Thread nD τ).loc main_arg3) := (W1_of_ne m ρ c main_arg3 (by decide)).trans rfl
  rw [e1, e3]

/-- The second weights when the pairwise grid starts. -/
theorem entry_arg5 (c : Dev nD) : V3 m ρ c main_arg5 = m ((c : Thread nD τ).loc main_arg5) := by
  show StableHlo.after hostOps2 (W2 m ρ c) (Proc.devRef .tc main_arg5) = _
  after_results
  exact W2_arg m ρ c main_arg5 (by decide) (by decide)

/-- The first bias as a 1×512 row. -/
theorem entry_v2 (c : Dev nD) : V3 m ρ c main_v2
    = shapeCast S1x512 (m ((c : Thread nD τ).loc main_arg4)) shapeCasts_S512_S1x512 := by
  show StableHlo.after hostOps2 (W2 m ρ c) (Proc.devRef .tc main_v2) = _
  after_results
  rw [W2_arg m ρ c main_arg4 (by decide) (by decide)]
  rfl

/-- The second bias as a 1×256 row. -/
theorem entry_v3 (c : Dev nD) : V3 m ρ c main_v3
    = shapeCast S1x256 (m ((c : Thread nD τ).loc main_arg6)) shapeCasts_S256_S1x256 := by
  show StableHlo.after hostOps2 (W2 m ρ c) (Proc.devRef .tc main_v3) = _
  after_results
  rw [W2_arg m ρ c main_arg6 (by decide) (by decide)]
  rfl

/-- The last bias as a 1×1 array. -/
theorem entry_v4 (c : Dev nD) : V3 m ρ c main_v4
    = shapeCast S1x1 (m ((c : Thread nD τ).loc main_arg8)) shapeCasts_S1_S1x1 := by
  show StableHlo.after hostOps2 (W2 m ρ c) (Proc.devRef .tc main_v4) = _
  after_results
  rw [W2_arg m ρ c main_arg8 (by decide) (by decide)]
  rfl

/-- The last weight column, flattened and made a 1×256 row. -/
theorem entry_v6 (c : Dev nD) : V3 m ρ c main_v6
    = shapeCast S1x256 (shapeCast S256 (m ((c : Thread nD τ).loc main_arg7)) shapeCasts_S256x1_S256) shapeCasts_S256_S1x256 := by
  show StableHlo.after hostOps2 (W2 m ρ c) (Proc.devRef .tc main_v6) = _
  after_results
  rw [W2_arg m ρ c main_arg7 (by decide) (by decide)]
  rfl

/-- The result buffer's final contents are the scorer of the nine launch arguments. -/
theorem result_eq (c : Dev nD) : W4 m ρ c (Proc.devRef .tc main_v7)
    = PairMlp.score (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7))
        (m ((c : Thread nD τ).loc main_arg8)) := by
  refine (W4_arr m ρ c 7).trans ?_
  refine (PairArray.final (V3 m ρ) c).trans ?_
  rw [entry_v0, entry_v1, entry_v2, entry_arg5, entry_v6, entry_v3, entry_v4]
  exact PairMlp.pairRows_rows _ _ _ _ _ _ _ _ _ _ _ _ _

/-- The idealized kernel's run with its result as a function of the arguments. -/
theorem run_value : θ_run defs (onTc (τ := τ) (main (F := Ideal))) ⟨m, fun _ => 0, ρ⟩ (fun r => ∀ c : Dev nD,
      r.2.mem ((c.tc : Thread nD τ).loc main_v7)
        = PairMlp.score (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6)) (m ((c : Thread nD τ).loc main_arg7))
            (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (run (F := Ideal) m ρ)

end Cert.KernelIdeal.Result

end
-- ==== Proof.RefValue.lean ====
/-
  The reference's result, one operation at a time, is the scorer of its nine arguments. Its two projections are
  contractions over the 576 features; the broadcasts that put a projected row of the first array beside every row of
  the second read the same entries the scorer names; both relu calls are the maximum with the zero literal, which
  denotes zero; the two later contractions are the sums over the 512 hidden and the 256 second-layer units; the final
  reshape drops the unit axis of the last contraction and the last bias is read at its one entry.
-/
import proofs.«176340_j70798240907716_2_alg».proof.Proof.Gen.ReferenceIdeal.Read
import proofs.«176340_j70798240907716_2_alg».proof.Proof.PairMlpSpec

open scoped BigOperators

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S2x1024x576, .f32⟩ : BufTy).Contents (Elt Ideal)) (x1 : (⟨S2x256x576, .f32⟩ : BufTy).Contents (Elt Ideal))
  (x2 x3 : (⟨S576x512, .f32⟩ : BufTy).Contents (Elt Ideal)) (x4 : (⟨S512, .f32⟩ : BufTy).Contents (Elt Ideal))
  (x5 : (⟨S512x256, .f32⟩ : BufTy).Contents (Elt Ideal)) (x6 : (⟨S256, .f32⟩ : BufTy).Contents (Elt Ideal))
  (x7 : (⟨S256x1, .f32⟩ : BufTy).Contents (Elt Ideal)) (x8 : (⟨S1, .f32⟩ : BufTy).Contents (Elt Ideal))

/-- The first layer's activation of the pair (n, mm) of batch b at hidden unit h. -/
theorem hidden1 (b : Fin 2) (n : Fin 1024) (mm : Fin 256) (h : Fin 512) :
    val_main_v10 (F := Ideal) x0 x1 x2 x3 x4 (ix4 b n mm h)
      = max (PairMlp.proj x0 x2 (ix3 b n h) + PairMlp.proj x1 x3 (ix3 b mm h) + x4 (ix1 h)) 0 := by
  rw [val_main_v10_apply, val_main_v9_apply, val_main_v6_apply, val_main_v4_apply, val_main_v2_apply, val_main_v0_apply,
    val_main_v5_apply, val_main_v3_apply, val_main_v1_apply, val_main_v8_apply, val_main_v7_apply,
    val_main_call0_v0_apply, val_main_call0_cst_apply]
  simp only [Ideal.maximumf_def, Ideal.addf_def, Ideal.ofBits_def, Ideal.ofBits_zero_f32]
  unfold PairMlp.proj
  refine congrArg₂ max (congrArg₂ (· + ·) (congrArg₂ (· + ·)
    (Finset.sum_congr rfl fun d _ => congrArg₂ (· * ·) (congrArg x0 ?_) (congrArg x2 ?_))
    (Finset.sum_congr rfl fun d _ => congrArg₂ (· * ·) (congrArg x1 ?_) (congrArg x3 ?_))) (congrArg x4 ?_)) rfl
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
  · funext a; apply Fin.ext
    match a with
    | ⟨0, _⟩ => rfl

/-- The second layer's activation of the pair at unit k. -/
theorem hidden2 (b : Fin 2) (n : Fin 1024) (mm : Fin 256) (k : Fin 256) :
    val_main_v15 (F := Ideal) x0 x1 x2 x3 x4 x5 x6 (ix4 b n mm k)
      = max ((∑ h : Fin 512, max (PairMlp.proj x0 x2 (ix3 b n h) + PairMlp.proj x1 x3 (ix3 b mm h) + x4 (ix1 h)) 0
          * x5 (ix2 h k)) + x6 (ix1 k)) 0 := by
  rw [val_main_v15_apply, val_main_v14_apply, val_main_v11_apply, val_main_v13_apply, val_main_v12_apply,
    val_main_call1_v0_apply, val_main_call1_cst_apply]
  simp only [Ideal.maximumf_def, Ideal.addf_def, Ideal.ofBits_def, Ideal.ofBits_zero_f32]
  refine congrArg₂ max (congrArg₂ (· + ·) (Finset.sum_congr rfl fun h _ => congrArg₂ (· * ·) ?_ (congrArg x5 ?_))
    (congrArg x6 ?_)) rfl
  · refine Eq.trans (congrArg (val_main_v10 (F := Ideal) x0 x1 x2 x3 x4) ?_) (hidden1 x0 x1 x2 x3 x4 b n mm h)
    funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
  · funext a; apply Fin.ext
    match a with
    | ⟨0, _⟩ => rfl

/-- The final reshape reads the last contraction at the same three coordinates and unit coordinate zero. -/
theorem idx17 (b : Fin 2) (n : Fin 1024) (mm : Fin 256) : idx_main_v17 (ix3 b n mm) = ix4 b n mm (0 : Fin 1) := by
  funext a; apply Fin.ext
  have hb := b.isLt
  have hn := n.isLt
  have hm := mm.isLt
  match a with
  | ⟨0, _⟩ => show ((b.val * 1024 + n.val) * 256 + mm.val) / 262144 = b.val; omega
  | ⟨1, _⟩ => show ((b.val * 1024 + n.val) * 256 + mm.val) / 256 % 1024 = n.val; omega
  | ⟨2, _⟩ => show ((b.val * 1024 + n.val) * 256 + mm.val) / 1 % 256 = mm.val; omega
  | ⟨3, _⟩ => rfl

/-- The reference's result is the scorer of its arguments. -/
theorem result_eq : val_main_v20 (F := Ideal) x0 x1 x2 x3 x4 x5 x6 x7 x8 = PairMlp.score x0 x1 x2 x3 x4 x5 x6 x7 x8 := by
  funext i
  obtain ⟨b, n, mm, rfl⟩ : ∃ (b : Fin 2) (n : Fin 1024) (mm : Fin 256), i = ix3 b n mm := ⟨i 0, i 1, i 2, eq_ix3 i⟩
  rw [val_main_v20_apply, val_main_v17_apply, val_main_v19_apply, idx17, val_main_v16_apply]
  simp only [Ideal.addf_def]
  unfold PairMlp.score
  refine congrArg₂ (· + ·) (Finset.sum_congr rfl fun k _ => congrArg₂ (· * ·) ?_ (congrArg x7 ?_)) ?_
  · refine Eq.trans (congrArg (val_main_v15 (F := Ideal) x0 x1 x2 x3 x4 x5 x6) ?_) (hidden2 x0 x1 x2 x3 x4 x5 x6 b n mm k)
    funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
  · unfold val_main_v18
    refine shapeCast_apply x8 _ _ _ ?_
    rfl

end Cert.ReferenceIdeal.RefValue

end
-- ==== Proof.lean ====
/-
  The pairwise two-layer scorer computed by three grids of blocks equals its plain array reference, on the extended
  reals. The kernel projects the rows of both feature arrays in two grids, reshapes the biases and the last weight
  column into rows, and in a third grid scores every pair of projected rows block by block; the reference computes the
  same projections as contractions, broadcasts them against each other, and applies the two remaining layers as
  contractions over the hidden units. Both results are one function of the nine arguments, index by index: the sums
  are the same sums over the same index sets, the changes of float format are the identity, and the zero literals
  denote zero. No step moves a factor across a sum, so finiteness of the inputs is never used.
  The three frame claims are the generated frame certificates (the reference's is its generated run with the result
  dropped); the idealization rewrote nothing, so there is nothing to preserve.
-/
import proofs.«176340_j70798240907716_2_alg».proof.Defs
import proofs.«176340_j70798240907716_2_alg».proof.Proof.Gen.Kernel
import proofs.«176340_j70798240907716_2_alg».proof.Proof.Gen.Kernel.Frame
import proofs.«176340_j70798240907716_2_alg».proof.Proof.Gen.KernelIdeal
import proofs.«176340_j70798240907716_2_alg».proof.Proof.Gen.KernelIdeal.Frame
import proofs.«176340_j70798240907716_2_alg».proof.Proof.Gen.ReferenceIdeal
import proofs.«176340_j70798240907716_2_alg».proof.Proof.Gen.ReferenceIdeal.Run
import proofs.«176340_j70798240907716_2_alg».proof.Proof.Gen.ReferenceIdeal.Read
import proofs.«176340_j70798240907716_2_alg».proof.Proof.Gen.Pre_finite_inputs
import proofs.«176340_j70798240907716_2_alg».proof.Proof.KernelValue
import proofs.«176340_j70798240907716_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the scorer of the shared arguments in their result buffers. -/
theorem algebraic : Cert.algebraic_KernelIdeal_ReferenceIdeal := by
  intro m ρ m' ρ' _ hagree
  refine ⟨_, Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v20_eq, Cert.ReferenceIdeal.RefValue.result_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
